-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x64 : Shape := ⟨2, ![64, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x64 .f32) (main_arg3 : FVec F S64 .f32) (main_arg4 : FVec F S64x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x64 : Shape := ⟨2, ![64, 64]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S4000x256 : Shape := ⟨2, ![4000, 256]⟩
abbrev S4000x1 : Shape := ⟨2, ![4000, 1]⟩
abbrev S4000x64 : Shape := ⟨2, ![4000, 64]⟩
abbrev S3300000x64 : Shape := ⟨2, ![3300000, 64]⟩
abbrev S1x64 : Shape := ⟨2, ![1, 64]⟩

abbrev nBuf : Space → Nat
  | .hbm => 46
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .bf16⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000x64, .bf16⟩
  | .hbm, ⟨38, _⟩ => ⟨S3300000x64, .f32⟩
  | .hbm, ⟨39, _⟩ => ⟨S_, .f32⟩
  | .hbm, ⟨40, _⟩ => ⟨S100000x64, .f32⟩
  | .hbm, ⟨41, _⟩ => ⟨S3300000x1, .i32⟩
  | .hbm, ⟨42, _⟩ => ⟨S100000x64, .f32⟩
  | .hbm, ⟨43, _⟩ => ⟨S1x64, .f32⟩
  | .hbm, ⟨44, _⟩ => ⟨S1x64, .f32⟩
  | .hbm, ⟨45, _⟩ => ⟨S100000x64, .f32⟩
  | .local _ .vmem, ⟨0, _⟩ => ⟨S4000x256, .f32⟩
  | .local _ .vmem, ⟨1, _⟩ => ⟨S4000x256, .f32⟩
  | .local _ .vmem, ⟨2, _⟩ => ⟨S256x64, .f32⟩
  | .local _ .vmem, ⟨3, _⟩ => ⟨S4000x1, .f32⟩
  | .local _ .vmem, ⟨4, _⟩ => ⟨S4000x1, .f32⟩
  | .local _ .vmem, ⟨5, _⟩ => ⟨S4000x64, .bf16⟩
  | .local _ .vmem, ⟨6, _⟩ => ⟨S4000x64, .bf16⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S4000x64, .f32⟩
  | .local _ .vmem, ⟨15, _⟩ => ⟨S4000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  scatter_S100000_S3300000x1_S3300000_n_0_0_1_wf : ScatterDims.WF S100000 S3300000x1 S3300000 [] [0] [0] 1
  dot_S4000x256_S256x64_S4000x64_1_0_0_1_n_n_wf : DotDims.WF S4000x256 S256x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x64 : Shape := ⟨2, ![64, 64]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x64_S100000x64_1_0_0_1_n_n_wf : DotDims.WF S100000x256 S256x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  THE IDEALIZED KERNEL'S RUN WITH ITS RESULT NAMED.

  @main is six segments: three stretches of host operations, the first pallas_call, one more stretch, the second
  pallas_call. The generated frame module walks them and names the TensorCore's buffer contents at each boundary:
  `W0` at launch, `W1 … W3` after the first three stretches, `W4` after the first call (its arrays at what the
  pipeline's write-backs leave), `W5` after the fourth stretch, `W6` after the second call. Its own conclusion keeps
  only the argument arrays. The same walk, read at the result's buffer as well, says that every weakly fair execution
  ends with the result array at `W6` there — the statement the value proof starts from.
-/
import proofs.«141884_j71210557767875_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, with the
    result array at the last boundary's contents `W6` and the six argument arrays as launched. -/
theorem run_main : θ_run defs (onTc (τ := τ) (main (F := F))) ⟨m, fun _ => 0, ρ⟩ (fun r => ∀ c : Dev nD,
      r.2.mem ((c.tc : Thread nD τ).loc main_v30) = W6 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v30 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Run

end
-- ==== Proof.Region0Value.lean ====
/-
  THE FIRST PALLAS CALL, READ AS ONE FUNCTION OF ITS ARRAYS (at the extended reals).

  The call walks 25 grid points. At point `t` its body loads block `t` of the node features (4000 rows of 256), the
  whole weight matrix (256 × 64) and block `t` of a one-column scale (4000 × 1), multiplies the first two as matrices
  into a zero accumulator, scales row `p` of the product by the `p`-th entry of the column, and stores the 4000 × 64
  result, which the pipeline writes back as block `t` of the call's result array. So, once all 25 points have run,
  entry `(n, j)` of the result is `(Σ_k x[n,k] · w[k,j]) · d[n,0]`: the body's value at an index (`pay_apply`), each
  block read as rows of its array (`blk_x`, `blk_w`, `blk_d`), what a point writes back (`flushed_eq`), and the
  blocks tiling the array (`cover`).
-/
import proofs.«141884_j71210557767875_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

/-- The contraction of the first call's product: `[4000, 256] · [256, 64] → [4000, 64]`, axis 1 against axis 0. -/
abbrev D0 := dot_S4000x256_S256x64_S4000x64_1_0_0_1_n_n

theorem lhs0 (i : S4000x64.Idx) (r : D0.contr.Idx) : (D0.lhsIdx i r 0).val = (i 0).val := by
  unfold DotDims.lhsIdx
  rw [dif_neg (show ¬(0 : Fin S4000x256.rank) ∈ D0.lhsBatch by decide), dif_pos (show (0 : Fin S4000x256.rank) ∈ D0.lhsNonContracting by decide)]
  rfl
theorem lhs1 (i : S4000x64.Idx) (r : D0.contr.Idx) : (D0.lhsIdx i r 1).val = (r ⟨0, by decide⟩).val :=
  D0.lhsIdx_val_of_single rfl i r
theorem rhs0 (i : S4000x64.Idx) (r : D0.contr.Idx) : (D0.rhsIdx i r 0).val = (r ⟨0, by decide⟩).val :=
  D0.rhsIdx_val_of_single rfl i r
theorem rhs1 (i : S4000x64.Idx) (r : D0.contr.Idx) : (D0.rhsIdx i r 1).val = (i 1).val := by
  unfold DotDims.rhsIdx
  rw [dif_neg (show ¬(1 : Fin S256x64.rank) ∈ D0.rhsBatch by decide), dif_pos (show (1 : Fin S256x64.rank) ∈ D0.rhsNonContracting by decide)]
  rfl

/-- THE BODY'S STORED VALUE AT `(p, q)`: row `p` of the first block times column `q` of the weights, the products added
    over the 256 features, times the row's entry of the one-column scale. (The two narrowings of format are the identity
    on the extended reals.) -/
theorem pay_apply (x0 : Vec Ideal S4000x256 .f32) (x1 : Vec Ideal S256x64 .f32) (x2 : Vec Ideal S4000x1 .f32) (p : Fin 4000) (q : Fin 64) :
    k0_pay1 x0 x1 x2 (ix2 p q) = (∑ k : Fin 256, x0 (ix2 p k) * x1 (ix2 k q)) * x2 (ix2 p (0 : Fin 1)) := by
  unfold k0_pay1
  rw [truncf_apply, mulf_apply]
  congr 1
  · refine (Ideal.matmul_constant_zero_apply D0 none _ _ (ix2 p q)).trans ?_
    rw [← Equiv.sum_comp (ValueIdx.contrEquiv1 D0 256 rfl rfl).symm]
    refine Finset.sum_congr rfl fun k _ => ?_
    have hk := ValueIdx.contrEquiv1_symm_val D0 256 rfl rfl k
    have el : D0.lhsIdx (ix2 p q) ((ValueIdx.contrEquiv1 D0 256 rfl rfl).symm k) = ix2 p k := funext fun a => Fin.ext (by
      match a with
      | ⟨0, _⟩ => exact lhs0 _ _
      | ⟨1, _⟩ => exact (lhs1 _ _).trans hk)
    have er : D0.rhsIdx (ix2 p q) ((ValueIdx.contrEquiv1 D0 256 rfl rfl).symm k) = ix2 k q := funext fun a => Fin.ext (by
      match a with
      | ⟨0, _⟩ => exact (rhs0 _ _).trans hk
      | ⟨1, _⟩ => exact rhs1 _ _)
    rw [el, er]
    rfl
  · rw [shapeCast_self]
    exact broadcastTo_apply x2 broadcasts_S4000x1_S4000x64 (ix2 p q) (ix2 p (0 : Fin 1)) (fun a => by
      match a with
      | ⟨0, _⟩ => rfl
      | ⟨1, _⟩ => rfl)

/-! ## The specification -/

/-- THE FIRST CALL'S RESULT, as one function of the three arrays it reads: entry `(n, j)` is row `n` of `x` times column
    `j` of `w` — the products added over the 256 features — times `d (n, 0)`, the row's scale. -/
def scaledRows (x : (⟨S100000x256, .f32⟩ : BufTy).Contents (Elt Ideal)) (w : (⟨S256x64, .f32⟩ : BufTy).Contents (Elt Ideal))
    (d : (⟨S100000x1, .f32⟩ : BufTy).Contents (Elt Ideal)) : (⟨S100000x64, .bf16⟩ : BufTy).Contents (Elt Ideal) :=
  fun i => (∑ k : Fin 256, x (ix2 (⟨(i 0).val, (i 0).isLt⟩ : Fin 100000) k) * w (ix2 k (⟨(i 1).val, (i 1).isLt⟩ : Fin 64)))
    * d (ix2 (⟨(i 0).val, (i 0).isLt⟩ : Fin 100000) (0 : Fin 1))

/-! ## The blocks -/

theorem hz : (![0, 0] : Fin 2 → Nat) = fun _ => 0 := funext fun a => by fin_cases a <;> rfl

/-- The printed index maps over the 25 points: the row-blocked windows (the features, the scale, the result) are at
    block `(t, 0)`, the weights at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Block `t` of the features is rows `4000 t … 4000 t + 3999` of the array. -/
theorem blk_x (c : Dev nD) (t : Fin cfg0.N) (p : Fin 4000) (k : Fin 256) (i : S100000x256.Idx)
    (h0 : (i 0).val = t.val * 4000 + p.val) (h1 : (i 1).val = k.val) :
    (iblk0 V c 0 t : Vec Ideal S4000x256 .f32) (ix2 p k) = (V c main_arg0 : S100000x256.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 4000 + 1 * p.val = (i 0).val; rw [e0, h0]; omega
  | ⟨1, _⟩ => show win0_0.index t (1 : Fin 2) * 256 + 1 * k.val = (i 1).val; rw [e1, h1]; omega

/-- Every point's block of the weights is the whole array. -/
theorem blk_w (c : Dev nD) (t : Fin cfg0.N) (k : Fin 256) (q : Fin 64) (i : S256x64.Idx)
    (h0 : (i 0).val = k.val) (h1 : (i 1).val = q.val) :
    (iblk0 V c 1 t : Vec Ideal S256x64 .f32) (ix2 k q) = (V c main_arg2 : S256x64.Idx → EReal) i := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t (0 : Fin 2) * 256 + 1 * k.val = (i 0).val; rw [e0, h0]; omega
  | ⟨1, _⟩ => show win0_1.index t (1 : Fin 2) * 64 + 1 * q.val = (i 1).val; rw [e1, h1]; omega

/-- Block `t` of the scale is rows `4000 t … 4000 t + 3999` of its one column. -/
theorem blk_d (c : Dev nD) (t : Fin cfg0.N) (p : Fin 4000) (i : S100000x1.Idx)
    (h0 : (i 0).val = t.val * 4000 + p.val) :
    (iblk0 V c 2 t : Vec Ideal S4000x1 .f32) (ix2 p (0 : Fin 1)) = (V c main_v15 : S100000x1.Idx → EReal) i := by
  obtain ⟨-, -, -, -, e0, e1, -⟩ := idx_facts t
  have hi1 : (i 1).val < 1 := (i 1).isLt
  unfold iblk0
  rw [View.read_apply]
  show V c main_v15 _ = V c main_v15 _
  congr 1
  funext a
  apply Fin.ext
  match a with
  | ⟨0, _⟩ => show win0_2.index t (0 : Fin 2) * 4000 + 1 * p.val = (i 0).val; rw [e0, h0]; omega
  | ⟨1, _⟩ => show win0_2.index t (1 : Fin 2) * 1 + 1 * 0 = (i 1).val; rw [e1]; omega

/-- WHAT POINT `t` WRITES BACK is block `t` of `scaledRows` of the arrays as the call finds them. -/
theorem flushed_eq (c : Dev nD) (t : Fin cfg0.N) :
    (dat0 V c).flushed 3 t
      = ((cfg0.win 3).blk t).view.read (Elt Ideal) (scaledRows (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S4000x256) hz, View.ld_unit_zero (S := S256x64) hz, View.ld_unit_zero (S := S4000x1) hz]
  obtain ⟨-, -, -, -, -, -, e0, e1⟩ := idx_facts t
  funext j
  obtain ⟨p, q, rfl⟩ : ∃ (p : Fin 4000) (q : Fin 64), j = ix2 p q := ⟨j 0, j 1, eq_ix2 j⟩
  refine (pay_apply (iblk0 V c 0 t) (iblk0 V c 1 t) (iblk0 V c 2 t) p q).trans ?_
  rw [View.read_apply]
  unfold scaledRows
  have hr : ((((cfg0.win 3).blk t).view.emb (ix2 p q)) 0).val = t.val * 4000 + p.val := by
    show win0_3.index t (0 : Fin 2) * 4000 + 1 * p.val = _; rw [e0]; omega
  have hc : ((((cfg0.win 3).blk t).view.emb (ix2 p q)) 1).val = q.val := by
    show win0_3.index t (1 : Fin 2) * 64 + 1 * q.val = _; rw [e1]; omega
  congr 1
  · refine Finset.sum_congr rfl fun k _ => ?_
    congr 1
    · exact blk_x V c t p k _ hr rfl
    · exact blk_w V c t k q _ rfl hc
  · exact blk_d V c t p _ hr

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v16).slice (win0_3.rect t)).set ↔ _
  rw [View.set_slice_whole, Rect.mem_set_unit]
  exact Iff.rfl

/-- The 25 blocks of 4000 rows tile the 100000 rows: row `r` is in the block of point `r / 4000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 25 := N_0
  refine ⟨⟨(i 0).val / 4000, by rw [hN]; omega⟩, flush0_3 _, ?_⟩
  obtain ⟨-, -, -, -, -, -, e0, e1⟩ := idx_facts ⟨(i 0).val / 4000, by rw [hN]; omega⟩
  rw [mem_blk]
  intro a
  match a with
  | ⟨0, _⟩ =>
    show win0_3.index _ (0 : Fin 2) * 4000 ≤ (i 0).val ∧ (i 0).val < win0_3.index _ (0 : Fin 2) * 4000 + 4000
    rw [e0]; show (i 0).val / 4000 * 4000 ≤ (i 0).val ∧ (i 0).val < (i 0).val / 4000 * 4000 + 4000; omega
  | ⟨1, _⟩ =>
    show win0_3.index _ (1 : Fin 2) * 64 ≤ (i 1).val ∧ (i 1).val < win0_3.index _ (1 : Fin 2) * 64 + 64
    rw [e1]; omega

/-- THE RESULT ARRAY OF THE FIRST CALL, after its 25 points: `scaledRows` of the three arrays as the call finds them. -/
theorem final (c : Dev nD) :
    (dat0 V c).arrAt 3 cfg0.N = scaledRows (V c main_arg0) (V c main_arg2) (V c main_v15) :=
  (dat0 V c).arrAt_eq_of_cover 3 _ (fun t _ => flushed_eq V c t) cover

end Cert.KernelIdeal.Region0

end
-- ==== Proof.Region1Value.lean ====
/-
  THE SECOND PALLAS CALL, READ AS ONE FUNCTION OF ITS ARRAYS (at the extended reals).

  The call walks 25 grid points. At point `t` its body loads block `t` of the aggregated rows (4000 × 64) and of the
  one-column scale (4000 × 1), and whole a bias row (1 × 64), the weight matrix (64 × 64) and a second bias row. It
  scales row `p` of the aggregate by the `p`-th entry of the column, adds the first bias row, cuts the negative part at
  zero, multiplies by the weights as matrices into a zero accumulator and adds the second bias row; the pipeline writes
  the 4000 × 64 result back as block `t` of the call's result array. Once all 25 points have run, entry `(n, j)` of the
  result is `Σ_k max (d[n,0] · a[n,k] + b₁[0,k]) 0 · w[k,j] + b₂[0,j]`: the body's value at an index (`pay_apply`),
  each block read as rows of its array, what a point writes back (`flushed_eq`), and the blocks tiling the array
  (`cover`).
-/
import proofs.«141884_j71210557767875_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

/-- The contraction of the second call's product: `[4000, 64] · [64, 64] → [4000, 64]`, axis 1 against axis 0. -/
abbrev D1 := dot_S4000x64_S64x64_S4000x64_1_0_0_1_n_n

theorem lhs0 (i : S4000x64.Idx) (r : D1.contr.Idx) : (D1.lhsIdx i r 0).val = (i 0).val := by
  unfold DotDims.lhsIdx
  rw [dif_neg (show ¬(0 : Fin S4000x64.rank) ∈ D1.lhsBatch by decide), dif_pos (show (0 : Fin S4000x64.rank) ∈ D1.lhsNonContracting by decide)]
  rfl
theorem lhs1 (i : S4000x64.Idx) (r : D1.contr.Idx) : (D1.lhsIdx i r 1).val = (r ⟨0, by decide⟩).val :=
  D1.lhsIdx_val_of_single rfl i r
theorem rhs0 (i : S4000x64.Idx) (r : D1.contr.Idx) : (D1.rhsIdx i r 0).val = (r ⟨0, by decide⟩).val :=
  D1.rhsIdx_val_of_single rfl i r
theorem rhs1 (i : S4000x64.Idx) (r : D1.contr.Idx) : (D1.rhsIdx i r 1).val = (i 1).val := by
  unfold DotDims.rhsIdx
  rw [dif_neg (show ¬(1 : Fin S64x64.rank) ∈ D1.rhsBatch by decide), dif_pos (show (1 : Fin S64x64.rank) ∈ D1.rhsNonContracting by decide)]
  rfl

/-- THE BODY'S STORED VALUE AT `(p, q)`: row `p` of the aggregated block is scaled by the row's entry of the one-column
    scale, the first bias row is added, the negative part is cut at zero; that row times column `q` of the weights, the
    products added over the 64 channels, plus entry `q` of the second bias row. -/
theorem pay_apply (x0 : Vec Ideal S4000x1 .f32) (x1 : Vec Ideal S4000x64 .f32) (x2 : Vec Ideal S1x64 .f32)
    (x3 : Vec Ideal S64x64 .f32) (x4 : Vec Ideal S1x64 .f32) (p : Fin 4000) (q : Fin 64) :
    k1_pay1 x0 x1 x2 x3 x4 (ix2 p q)
      = (∑ k : Fin 64, max (x0 (ix2 p (0 : Fin 1)) * x1 (ix2 p k) + x2 (ix2 (0 : Fin 1) k)) 0 * x3 (ix2 k q))
        + x4 (ix2 (0 : Fin 1) q) := by
  unfold k1_pay1
  rw [addf_apply]
  congr 1
  · refine (Ideal.matmul_constant_zero_apply D1 none _ _ (ix2 p q)).trans ?_
    rw [← Equiv.sum_comp (ValueIdx.contrEquiv1 D1 64 rfl rfl).symm]
    refine Finset.sum_congr rfl fun k _ => ?_
    have hk := ValueIdx.contrEquiv1_symm_val D1 64 rfl rfl k
    have el : D1.lhsIdx (ix2 p q) ((ValueIdx.contrEquiv1 D1 64 rfl rfl).symm k) = ix2 p k := funext fun a => Fin.ext (by
      match a with
      | ⟨0, _⟩ => exact lhs0 _ _
      | ⟨1, _⟩ => exact (lhs1 _ _).trans hk)
    have er : D1.rhsIdx (ix2 p q) ((ValueIdx.contrEquiv1 D1 64 rfl rfl).symm k) = ix2 k q := funext fun a => Fin.ext (by
      match a with
      | ⟨0, _⟩ => exact (rhs0 _ _).trans hk
      | ⟨1, _⟩ => exact rhs1 _ _)
    rw [el, er]
    rw [truncf_apply, truncf_apply, maximumf_apply, addf_apply, mulf_apply, broadcast_apply, shapeCast_self, shapeCast_self, shapeCast_self]
    rw [broadcastTo_apply x0 broadcasts_S4000x1_S4000x64 (ix2 p k) (ix2 p (0 : Fin 1)) (fun a => by
        match a with
        | ⟨0, _⟩ => rfl
        | ⟨1, _⟩ => rfl),
      broadcastTo_apply x2 broadcasts_S1x64_S4000x64 (ix2 p k) (ix2 (0 : Fin 1) k) (fun a => by
        match a with
        | ⟨0, _⟩ => rfl
        | ⟨1, _⟩ => rfl)]
    rw [show Scalar.ofBits (F := Ideal) .f32 0x00000000#32 = (0 : EReal) from Ideal.ofBits_zero_f32]
  · rw [shapeCast_self]
    exact broadcastTo_apply x4 broadcasts_S1x64_S4000x64 (ix2 p q) (ix2 (0 : Fin 1) q) (fun a => by
      match a with
      | ⟨0, _⟩ => rfl
      | ⟨1, _⟩ => rfl)

/-! ## The specification -/

/-- THE SECOND CALL'S RESULT, as one function of the five arrays it reads: with `a` the aggregated rows, `d` the
    one-column scale, `b₁`, `b₂` the two bias rows and `w` the weights, entry `(n, j)` is
    `Σ_k max (d (n,0) · a (n,k) + b₁ (0,k)) 0 · w (k,j) + b₂ (0,j)`. -/
def reluLinear (a : (⟨S100000x64, .f32⟩ : BufTy).Contents (Elt Ideal)) (d : (⟨S100000x1, .f32⟩ : BufTy).Contents (Elt Ideal))
    (b₁ : (⟨S1x64, .f32⟩ : BufTy).Contents (Elt Ideal)) (w : (⟨S64x64, .f32⟩ : BufTy).Contents (Elt Ideal))
    (b₂ : (⟨S1x64, .f32⟩ : BufTy).Contents (Elt Ideal)) : (⟨S100000x64, .f32⟩ : BufTy).Contents (Elt Ideal) :=
  fun i => (∑ k : Fin 64,
      max (d (ix2 (⟨(i 0).val, (i 0).isLt⟩ : Fin 100000) (0 : Fin 1)) * a (ix2 (⟨(i 0).val, (i 0).isLt⟩ : Fin 100000) k)
            + b₁ (ix2 (0 : Fin 1) k)) 0
        * w (ix2 k (⟨(i 1).val, (i 1).isLt⟩ : Fin 64)))
    + b₂ (ix2 (0 : Fin 1) (⟨(i 1).val, (i 1).isLt⟩ : Fin 64))

/-! ## The blocks -/

theorem hz : (![0, 0] : Fin 2 → Nat) = fun _ => 0 := funext fun a => by fin_cases a <;> rfl

/-- The printed index maps over the 25 points: the row-blocked windows (the aggregated rows, the scale, the result) are
    at block `(t, 0)`, the two bias rows and the weights at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Block `t` of the aggregated rows is rows `4000 t … 4000 t + 3999` of the array. -/
theorem blk_a (c : Dev nD) (t : Fin cfg1.N) (p : Fin 4000) (k : Fin 64) (i : S100000x64.Idx)
    (h0 : (i 0).val = t.val * 4000 + p.val) (h1 : (i 1).val = k.val) :
    (iblk1 V c 0 t : Vec Ideal S4000x64 .f32) (ix2 p k) = (V c main_v27 : S100000x64.Idx → EReal) i := by
  obtain ⟨e0, e1, -⟩ := idx_facts t
  unfold iblk1
  rw [View.read_apply]
  show V c main_v27 _ = V c main_v27 _
  congr 1
  funext a
  apply Fin.ext
  match a with
  | ⟨0, _⟩ => show win1_0.index t (0 : Fin 2) * 4000 + 1 * p.val = (i 0).val; rw [e0, h0]; omega
  | ⟨1, _⟩ => show win1_0.index t (1 : Fin 2) * 64 + 1 * k.val = (i 1).val; rw [e1, h1]; omega

/-- Block `t` of the scale is rows `4000 t … 4000 t + 3999` of its one column. -/
theorem blk_d (c : Dev nD) (t : Fin cfg1.N) (p : Fin 4000) (i : S100000x1.Idx)
    (h0 : (i 0).val = t.val * 4000 + p.val) :
    (iblk1 V c 1 t : Vec Ideal S4000x1 .f32) (ix2 p (0 : Fin 1)) = (V c main_v15 : S100000x1.Idx → EReal) i := by
  obtain ⟨-, -, e0, e1, -⟩ := idx_facts t
  have hi1 : (i 1).val < 1 := (i 1).isLt
  unfold iblk1
  rw [View.read_apply]
  show V c main_v15 _ = V c main_v15 _
  congr 1
  funext a
  apply Fin.ext
  match a with
  | ⟨0, _⟩ => show win1_1.index t (0 : Fin 2) * 4000 + 1 * p.val = (i 0).val; rw [e0, h0]; omega
  | ⟨1, _⟩ => show win1_1.index t (1 : Fin 2) * 1 + 1 * 0 = (i 1).val; rw [e1]; omega

/-- Every point's block of the first bias row is the whole row. -/
theorem blk_b1 (c : Dev nD) (t : Fin cfg1.N) (k : Fin 64) (i : S1x64.Idx) (h1 : (i 1).val = k.val) :
    (iblk1 V c 2 t : Vec Ideal S1x64 .f32) (ix2 (0 : Fin 1) k) = (V c main_v28 : S1x64.Idx → EReal) i := by
  obtain ⟨-, -, -, -, e0, e1, -⟩ := idx_facts t
  have hi0 : (i 0).val < 1 := (i 0).isLt
  unfold iblk1
  rw [View.read_apply]
  show V c main_v28 _ = V c main_v28 _
  congr 1
  funext a
  apply Fin.ext
  match a with
  | ⟨0, _⟩ => show win1_2.index t (0 : Fin 2) * 1 + 1 * 0 = (i 0).val; rw [e0]; omega
  | ⟨1, _⟩ => show win1_2.index t (1 : Fin 2) * 64 + 1 * k.val = (i 1).val; rw [e1, h1]; omega

/-- Every point's block of the weights is the whole array. -/
theorem blk_w (c : Dev nD) (t : Fin cfg1.N) (k : Fin 64) (q : Fin 64) (i : S64x64.Idx)
    (h0 : (i 0).val = k.val) (h1 : (i 1).val = q.val) :
    (iblk1 V c 3 t : Vec Ideal S64x64 .f32) (ix2 k q) = (V c main_arg4 : S64x64.Idx → EReal) i := by
  obtain ⟨-, -, -, -, -, -, e0, e1, -⟩ := idx_facts t
  unfold iblk1
  rw [View.read_apply]
  show V c main_arg4 _ = V c main_arg4 _
  congr 1
  funext a
  apply Fin.ext
  match a with
  | ⟨0, _⟩ => show win1_3.index t (0 : Fin 2) * 64 + 1 * k.val = (i 0).val; rw [e0, h0]; omega
  | ⟨1, _⟩ => show win1_3.index t (1 : Fin 2) * 64 + 1 * q.val = (i 1).val; rw [e1, h1]; omega

/-- Every point's block of the second bias row is the whole row. -/
theorem blk_b2 (c : Dev nD) (t : Fin cfg1.N) (q : Fin 64) (i : S1x64.Idx) (h1 : (i 1).val = q.val) :
    (iblk1 V c 4 t : Vec Ideal S1x64 .f32) (ix2 (0 : Fin 1) q) = (V c main_v29 : S1x64.Idx → EReal) i := by
  obtain ⟨-, -, -, -, -, -, -, -, e0, e1, -⟩ := idx_facts t
  have hi0 : (i 0).val < 1 := (i 0).isLt
  unfold iblk1
  rw [View.read_apply]
  show V c main_v29 _ = V c main_v29 _
  congr 1
  funext a
  apply Fin.ext
  match a with
  | ⟨0, _⟩ => show win1_4.index t (0 : Fin 2) * 1 + 1 * 0 = (i 0).val; rw [e0]; omega
  | ⟨1, _⟩ => show win1_4.index t (1 : Fin 2) * 64 + 1 * q.val = (i 1).val; rw [e1, h1]; omega

/-- WHAT POINT `t` WRITES BACK is block `t` of `reluLinear` of the arrays as the call finds them. -/
theorem flushed_eq (c : Dev nD) (t : Fin cfg1.N) :
    (dat1 V c).flushed 5 t
      = ((cfg1.win 5).blk t).view.read (Elt Ideal)
          (reluLinear (V c main_v27) (V c main_v15) (V c main_v28) (V c main_arg4) (V c main_v29)) := by
  show (cfg1.win 5).cut (grid1.coords t) ((dat1 V c).after 5 t) = _
  rw [after1_5]
  unfold out1_5
  rw [View.canon_unit_zero hz]
  simp only [View.ld_unit_zero (S := S4000x64) hz, View.ld_unit_zero (S := S4000x1) hz, View.ld_unit_zero (S := S1x64) hz,
    View.ld_unit_zero (S := S64x64) hz]
  obtain ⟨-, -, -, -, -, -, -, -, -, -, e0, e1⟩ := idx_facts t
  funext j
  obtain ⟨p, q, rfl⟩ : ∃ (p : Fin 4000) (q : Fin 64), j = ix2 p q := ⟨j 0, j 1, eq_ix2 j⟩
  refine (pay_apply (iblk1 V c 1 t) (iblk1 V c 0 t) (iblk1 V c 2 t) (iblk1 V c 3 t) (iblk1 V c 4 t) p q).trans ?_
  rw [View.read_apply]
  unfold reluLinear
  have hr : ((((cfg1.win 5).blk t).view.emb (ix2 p q)) 0).val = t.val * 4000 + p.val := by
    show win1_5.index t (0 : Fin 2) * 4000 + 1 * p.val = _; rw [e0]; omega
  have hc : ((((cfg1.win 5).blk t).view.emb (ix2 p q)) 1).val = q.val := by
    show win1_5.index t (1 : Fin 2) * 64 + 1 * q.val = _; rw [e1]; omega
  refine congrArg₂ (fun u v : EReal => u + v) (Finset.sum_congr rfl fun k _ => ?_) (blk_b2 V c t q _ hc)
  refine congrArg₂ (fun u v : EReal => u * v) (congrArg (fun u : EReal => max u 0) ?_) (blk_w V c t k q _ rfl hc)
  exact congrArg₂ (fun u v : EReal => u + v)
    (congrArg₂ (fun u v : EReal => u * v) (blk_d V c t p _ hr) (blk_a V c t p k _ hr rfl)) (blk_b1 V c t k _ rfl)

/-- An index of the result array is in point `t`'s block iff each coordinate is in the block's range on its axis. -/
theorem mem_blk (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v30).slice (win1_5.rect t)).set ↔ _
  rw [View.set_slice_whole, Rect.mem_set_unit]
  exact Iff.rfl

/-- The 25 blocks of 4000 rows tile the 100000 rows: row `r` is in the block of point `r / 4000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 25 := N_1
  refine ⟨⟨(i 0).val / 4000, by rw [hN]; omega⟩, flush1_5 _, ?_⟩
  obtain ⟨-, -, -, -, -, -, -, -, -, -, e0, e1⟩ := idx_facts ⟨(i 0).val / 4000, by rw [hN]; omega⟩
  rw [mem_blk]
  intro a
  match a with
  | ⟨0, _⟩ =>
    show win1_5.index _ (0 : Fin 2) * 4000 ≤ (i 0).val ∧ (i 0).val < win1_5.index _ (0 : Fin 2) * 4000 + 4000
    rw [e0]; show (i 0).val / 4000 * 4000 ≤ (i 0).val ∧ (i 0).val < (i 0).val / 4000 * 4000 + 4000; omega
  | ⟨1, _⟩ =>
    show win1_5.index _ (1 : Fin 2) * 64 ≤ (i 1).val ∧ (i 1).val < win1_5.index _ (1 : Fin 2) * 64 + 64
    rw [e1]; omega

/-- THE RESULT ARRAY OF THE SECOND CALL, after its 25 points: `reluLinear` of the five arrays as the call finds them. -/
theorem final (c : Dev nD) :
    (dat1 V c).arrAt 5 cfg1.N
      = reluLinear (V c main_v27) (V c main_v15) (V c main_v28) (V c main_arg4) (V c main_v29) :=
  (dat1 V c).arrAt_eq_of_cover 5 _ (fun t _ => flushed_eq V c t) cover

end Cert.KernelIdeal.Region1

end
-- ==== Proof.KernelValue.lean ====
/-
  THE IDEALIZED KERNEL'S RESULT AS ONE FUNCTION OF ITS SIX ARGUMENTS.

  The run ends with the result array at `W6`, the buffer contents after the last of @main's six segments. Read
  backwards: the second pallas_call leaves `reluLinear` of five arrays as it finds them; of those, the fourth stretch of
  host operations computed the aggregated rows — a gather of the first call's result along the source nodes, added row
  by row into the target nodes — and reshaped the two bias vectors into rows; the first pallas_call left `scaledRows` of
  the features, the first weights and the column of inverse root degrees; and the first three stretches computed that
  column and the two node lists from the edge list. The edge list's part — the node lists `row` and `col`, the degrees, their
  guarded inverse roots — is computed by the same host operations in the reference program, so it is stated here with the
  reference's own staged terms (`val_main_v5`, `val_main_v6`, `val_main_v14`, `val_main_v36`, `val_main_v42`): the two
  programs then share these terms literally and the comparison never opens them.
-/
import proofs.«141884_j71210557767875_2_alg».proof.Proof.Gen.KernelIdeal.Frame
import proofs.«141884_j71210557767875_2_alg».proof.Proof.RefRead
import proofs.«141884_j71210557767875_2_alg».proof.Proof.KernelRun
import proofs.«141884_j71210557767875_2_alg».proof.Proof.Region0Value
import proofs.«141884_j71210557767875_2_alg».proof.Proof.Region1Value
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.KValue

open Cert.KernelIdeal Cert.KernelIdeal.Gen
open Cert.ReferenceIdeal.ReadP (val_main_v5 val_main_v6 val_main_v10 val_main_v11 val_main_v12 val_main_v13 val_main_v14 val_main_cst_2 val_main_v36 val_main_v41 val_main_v42)

variable (m : (ℓ : Loc nD τ sig) → Buf (Elt Ideal) ℓ) (ρ : Dev nD → PrngReg)

/-! ## The buffers the two calls and the fourth stretch read, after the first three stretches -/

/-- The target nodes `col` (the second row of the edge list with the self-loops appended). -/
theorem W3_v6 (c : Dev nD) :
    W3 m ρ c (Proc.devRef .tc main_v6) = val_main_v6 (F := Ideal) (m ((c : Thread nD τ).loc main_arg1)) := by
  dsimp only [W3, W2, W1, W0, hostOps0, hostOps0_1, hostOps0_2]
  after_results
  rfl

/-- The source nodes `row` (the first row of the edge list with the self-loops appended). -/
theorem W3_v5 (c : Dev nD) :
    W3 m ρ c (Proc.devRef .tc main_v5) = val_main_v5 (F := Ideal) (m ((c : Thread nD τ).loc main_arg1)) := by
  dsimp only [W3, W2, W1, W0, hostOps0, hostOps0_1, hostOps0_2]
  after_results
  rfl

/-- The degrees: ones added along `col` onto zeros. -/
theorem W1_v10 (c : Dev nD) :
    W1 m ρ c (Proc.devRef .tc main_v10) = val_main_v10 (F := Ideal) (m ((c : Thread nD τ).loc main_arg1)) := by
  dsimp only [W1, W0, hostOps0]
  after_results
  rfl

/-- Where the degree is positive. -/
theorem W1_v12 (c : Dev nD) :
    W1 m ρ c (Proc.devRef .tc main_v12) = val_main_v12 (F := Ideal) (m ((c : Thread nD τ).loc main_arg1)) := by
  have h : (W1 m ρ c (Proc.devRef .tc main_v12) : (⟨S100000, .i1⟩ : BufTy).Contents (Elt Ideal))
      = cmpf (F := Ideal) (s := S100000) (φ := .f32) .ogt (W1 m ρ c (Proc.devRef .tc main_v10) : (⟨S100000, .f32⟩ : BufTy).Contents (Elt Ideal))
          (val_main_v11 (F := Ideal)) := by
    dsimp only [W1, W0, hostOps0]
    after_results
    rfl
  rw [h, W1_v10]
  rfl

/-- The inverse roots of the degrees, unguarded. -/
theorem W1_v13 (c : Dev nD) :
    W1 m ρ c (Proc.devRef .tc main_v13) = val_main_v13 (F := Ideal) (m ((c : Thread nD τ).loc main_arg1)) := by
  have h : (W1 m ρ c (Proc.devRef .tc main_v13) : (⟨S100000, .f32⟩ : BufTy).Contents (Elt Ideal))
      = Host.rsqrt (F := Ideal) (s := S100000) (φ := .f32) (W1 m ρ c (Proc.devRef .tc main_v10) : (⟨S100000, .f32⟩ : BufTy).Contents (Elt Ideal)) := by
    dsimp only [W1, W0, hostOps0]
    after_results
  rw [h, W1_v10]
  rfl

/-- The guard's zero. -/
theorem W1_cst2 (c : Dev nD) : W1 m ρ c (Proc.devRef .tc main_cst_2) = val_main_cst_2 (F := Ideal) := by
  dsimp only [W1, W0, hostOps0]
  after_results
  try rfl

/-- The guarded inverse roots: the second stretch is the outlined selection between the root and zero. -/
theorem W2_v14 (c : Dev nD) :
    W2 m ρ c (Proc.devRef .tc main_v14) = val_main_v14 (F := Ideal) (m ((c : Thread nD τ).loc main_arg1)) := by
  have h : (W2 m ρ c (Proc.devRef .tc main_v14) : (⟨S100000, .f32⟩ : BufTy).Contents (Elt Ideal))
      = select (W1 m ρ c (Proc.devRef .tc main_v12) : (⟨S100000, .i1⟩ : BufTy).Contents (Elt Ideal))
          (W1 m ρ c (Proc.devRef .tc main_v13) : (⟨S100000, .f32⟩ : BufTy).Contents (Elt Ideal))
          (broadcastInDim S100000 ![] bcast_S_S100000
            (W1 m ρ c (Proc.devRef .tc main_cst_2) : (⟨S_, .f32⟩ : BufTy).Contents (Elt Ideal))) := by
    show StableHlo.after hostOps0_1 (W1 m ρ c) (Proc.devRef .tc main_v14) = _
    generalize W1 m ρ c = Y
    dsimp only [hostOps0_1]
    after_results
    try rfl
  rw [h, W1_v12, W1_v13, W1_cst2]
  rfl

/-- The inverse root degrees as one column: the third stretch is the one reshape. -/
theorem W3_v15 (c : Dev nD) :
    W3 m ρ c (Proc.devRef .tc main_v15)
      = shapeCast _ (val_main_v14 (F := Ideal) (m ((c : Thread nD τ).loc main_arg1))) shapeCasts_S100000_S100000x1 := by
  have h : W3 m ρ c (Proc.devRef .tc main_v15)
      = shapeCast _ (W2 m ρ c (Proc.devRef .tc main_v14)) shapeCasts_S100000_S100000x1 := by
    show StableHlo.after hostOps0_2 (W2 m ρ c) (Proc.devRef .tc main_v15) = _
    generalize W2 m ρ c = Y
    dsimp only [hostOps0_2]
    after_results
    try rfl
  rw [h, W2_v14]

/-- No host operation of the first three stretches writes an argument. -/
theorem W3_arg0 (c : Dev nD) : W3 m ρ c (Proc.devRef .tc main_arg0) = m ((c : Thread nD τ).loc main_arg0) := by
  dsimp only [W3, W2, W1, W0, hostOps0, hostOps0_1, hostOps0_2]
  after_results
theorem W3_arg2 (c : Dev nD) : W3 m ρ c (Proc.devRef .tc main_arg2) = m ((c : Thread nD τ).loc main_arg2) := by
  dsimp only [W3, W2, W1, W0, hostOps0, hostOps0_1, hostOps0_2]
  after_results
theorem W3_arg3 (c : Dev nD) : W3 m ρ c (Proc.devRef .tc main_arg3) = m ((c : Thread nD τ).loc main_arg3) := by
  dsimp only [W3, W2, W1, W0, hostOps0, hostOps0_1, hostOps0_2]
  after_results
theorem W3_arg4 (c : Dev nD) : W3 m ρ c (Proc.devRef .tc main_arg4) = m ((c : Thread nD τ).loc main_arg4) := by
  dsimp only [W3, W2, W1, W0, hostOps0, hostOps0_1, hostOps0_2]
  after_results
theorem W3_arg5 (c : Dev nD) : W3 m ρ c (Proc.devRef .tc main_arg5) = m ((c : Thread nD τ).loc main_arg5) := by
  dsimp only [W3, W2, W1, W0, hostOps0, hostOps0_1, hostOps0_2]
  after_results

/-! ## After the first call: its result array is `scaledRows`; every other buffer is as it was -/

theorem W4_v16 (c : Dev nD) :
    W4 m ρ c (Proc.devRef .tc main_v16)
      = Region0.scaledRows (m ((c : Thread nD τ).loc main_arg0)) (m ((c : Thread nD τ).loc main_arg2))
          (shapeCast _ (val_main_v14 (F := Ideal) (m ((c : Thread nD τ).loc main_arg1))) shapeCasts_S100000_S100000x1) := by
  refine (W4_arr m ρ c 3).trans ?_
  rw [Region0.final (V3 m ρ) c]
  show Region0.scaledRows (W3 m ρ c (Proc.devRef .tc main_arg0)) (W3 m ρ c (Proc.devRef .tc main_arg2))
    (W3 m ρ c (Proc.devRef .tc main_v15)) = _
  rw [W3_arg0, W3_arg2, W3_v15]

theorem W4_v6 (c : Dev nD) :
    W4 m ρ c (Proc.devRef .tc main_v6) = val_main_v6 (F := Ideal) (m ((c : Thread nD τ).loc main_arg1)) :=
  (W4_of_ne m ρ c main_v6 (by decide)).trans (W3_v6 m ρ c)
theorem W4_v5 (c : Dev nD) :
    W4 m ρ c (Proc.devRef .tc main_v5) = val_main_v5 (F := Ideal) (m ((c : Thread nD τ).loc main_arg1)) :=
  (W4_of_ne m ρ c main_v5 (by decide)).trans (W3_v5 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
/-- The column of inverse root degrees is one of the first call's INPUT arrays: the call leaves it as entered. -/
theorem W4_v15 (c : Dev nD) :
    W4 m ρ c (Proc.devRef .tc main_v15)
      = shapeCast _ (val_main_v14 (F := Ideal) (m ((c : Thread nD τ).loc main_arg1))) shapeCasts_S100000_S100000x1 :=
  ((W4_arr m ρ c 2).trans (((dat0 (V3 m ρ) c).arrAt_in 2 rfl _).trans (A_eq0 (V3 m ρ) c 2))).trans (W3_v15 m ρ c)

/-! ## After the fourth stretch: the gather of the scaled rows along `row`, added into the rows `col` names -/

/-- THE AGGREGATED ROWS: the scaled rows `(x · w) · d` gathered along the source nodes (a negative index wrapped once,
    then clamped) and added, edge by edge, into the row the edge's target node names (a target outside the array drops
    the edge). -/
def aggRows (x : (⟨S100000x256, .f32⟩ : BufTy).Contents (Elt Ideal)) (ei : (⟨S2x3200000, .i32⟩ : BufTy).Contents (Elt Ideal))
    (wg : (⟨S256x64, .f32⟩ : BufTy).Contents (Elt Ideal)) : (⟨S100000x64, .f32⟩ : BufTy).Contents (Elt Ideal) :=
  Host.scatterAdd (F := Ideal) scatter_S100000x64_S3300000x1_S3300000x64_1_0_0_1
    (val_main_v41 (F := Ideal))
    (val_main_v42 (F := Ideal) ei)
    (extf (F := Ideal) (φ := .bf16) .f32 (Host.gather gather_S100000x64_S3300000x1_S3300000x64_1_0_n_n_0_1_164
        (Region0.scaledRows x wg (shapeCast _ (val_main_v14 (F := Ideal) ei) shapeCasts_S100000_S100000x1))
        (val_main_v36 (F := Ideal) ei)) bitsLt_bf16_f32)

theorem W5_v27 (c : Dev nD) :
    W5 m ρ c (Proc.devRef .tc main_v27)
      = aggRows (m ((c : Thread nD τ).loc main_arg0)) (m ((c : Thread nD τ).loc main_arg1)) (m ((c : Thread nD τ).loc main_arg2)) := by
  dsimp only [W5, hostOps1]
  after_results
  rw [W4_v6, W4_v16, W4_v5]
  rfl

theorem W5_v15 (c : Dev nD) :
    W5 m ρ c (Proc.devRef .tc main_v15)
      = shapeCast _ (val_main_v14 (F := Ideal) (m ((c : Thread nD τ).loc main_arg1))) shapeCasts_S100000_S100000x1 := by
  dsimp only [W5, hostOps1]
  after_results
  exact W4_v15 m ρ c

theorem W5_v28 (c : Dev nD) :
    W5 m ρ c (Proc.devRef .tc main_v28) = shapeCast _ (m ((c : Thread nD τ).loc main_arg3)) shapeCasts_S64_S1x64 := by
  dsimp only [W5, hostOps1]
  after_results
  rw [W4_arg3]
  rfl

theorem W5_v29 (c : Dev nD) :
    W5 m ρ c (Proc.devRef .tc main_v29) = shapeCast _ (m ((c : Thread nD τ).loc main_arg5)) shapeCasts_S64_S1x64 := by
  dsimp only [W5, hostOps1]
  after_results
  rw [W4_arg5]
  rfl

theorem W5_arg4 (c : Dev nD) : W5 m ρ c (Proc.devRef .tc main_arg4) = m ((c : Thread nD τ).loc main_arg4) := by
  dsimp only [W5, hostOps1]
  after_results
  exact W4_arg4 m ρ c

/-! ## After the second call -/

/-- THE KERNEL'S RESULT as one function of the six arguments. -/
def kernelOut (x : (⟨S100000x256, .f32⟩ : BufTy).Contents (Elt Ideal)) (ei : (⟨S2x3200000, .i32⟩ : BufTy).Contents (Elt Ideal))
    (wg : (⟨S256x64, .f32⟩ : BufTy).Contents (Elt Ideal)) (bg : (⟨S64, .f32⟩ : BufTy).Contents (Elt Ideal))
    (wl : (⟨S64x64, .f32⟩ : BufTy).Contents (Elt Ideal)) (bl : (⟨S64, .f32⟩ : BufTy).Contents (Elt Ideal)) :
    (⟨S100000x64, .f32⟩ : BufTy).Contents (Elt Ideal) :=
  Region1.reluLinear (aggRows x ei wg) (shapeCast _ (val_main_v14 (F := Ideal) ei) shapeCasts_S100000_S100000x1)
    (shapeCast _ bg shapeCasts_S64_S1x64) wl (shapeCast _ bl shapeCasts_S64_S1x64)

theorem W6_v30 (c : Dev nD) :
    W6 m ρ c (Proc.devRef .tc main_v30)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W6_arr m ρ c 5).trans ?_
  rw [Region1.final (V5 m ρ) c]
  show Region1.reluLinear (W5 m ρ c (Proc.devRef .tc main_v27)) (W5 m ρ c (Proc.devRef .tc main_v15))
    (W5 m ρ c (Proc.devRef .tc main_v28)) (W5 m ρ c (Proc.devRef .tc main_arg4)) (W5 m ρ c (Proc.devRef .tc main_v29)) = _
  rw [W5_v27, W5_v15, W5_v28, W5_arg4, W5_v29]
  rfl

/-- THE RUN, READ: every weakly fair execution ends with the result array at `kernelOut` of the arguments and the
    arguments as launched. -/
theorem run : θ_run defs (onTc (τ := τ) (main (F := Ideal))) ⟨m, fun _ => 0, ρ⟩ (fun r => ∀ c : Dev nD,
      r.2.mem ((c.tc : Thread nD τ).loc main_v30)
        = kernelOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W6_v30 m ρ c), (h c).2⟩) (Run.run_main m ρ)

end Cert.KernelIdeal.KValue

end
-- ==== Proof.LibScatterGather.lean ====
/-
  THE HOST'S ACCUMULATING SCATTER AND ITS ROW GATHER, READ AT ONE INDEX, for every size of the arrays.

  Two index patterns, each for a matrix of rows and for a flat array:

  * SCATTER-ADD OF ROWS. An operand `x : [N, C]`, a column of start words `idx : [M, 1]` and updates `upd : [M, C]`;
    update row `e` is added onto operand row `idx[e, 0]`, the word read as a SIGNED integer and NOT clamped: a start
    outside `[0, N)` drops the row. At the extended reals the result at `(v, f)` is therefore
        x (v, f) + Σ_{e : idx[e,0] = v} upd (e, f),
    the sum over exactly those `e` whose start word, read signed, is `v` (`scatterAdd_rows_apply`). The flat form, an
    operand `[N]` with updates `[M]`, is the same statement without the column coordinate (`scatterAdd_flat_apply`).
  * GATHER OF ROWS. An operand `x : [N, C]` and the same column of start words; result row `e` is operand row
    `idx[e, 0]`, the word read signed and CLAMPED into `[0, N − 1]` (`gather_rows_apply`); the flat form reads one
    element (`gather_flat_apply`).

  The proofs evaluate the dimension numbers' coordinate maps — which operand axis reads which update or result axis —
  once, for symbolic sizes: only the ranks, which are literals, decide them. For the scatter the set of update indices
  landing on `(v, f)` is then `{(e, f) | idx[e,0] = v}`, and the sum over it is re-indexed along `e ↦ (e, f)`.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## Scatter-add of rows: operand `[N, C]`, start words `[M, 1]`, updates `[M, C]` -/

/-- The dimension numbers of a row scatter: update axis 1 is the window axis and goes to operand axis 1; operand axis 0
    is inserted and receives the start index, whose single component is read along axis 1 of the start words. Their
    conditions `wf` are decided on literal sizes. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Rows
variable {N M C w : Nat} (wf : ScatterDims.WF ⟨2, ![N, C]⟩ ⟨2, ![M, 1]⟩ ⟨2, ![M, C]⟩ [1] [0] [0] 1)

/-- On operand axis 0 the window of update `(e, g)` starts at the start word of row `e`, read signed. -/
theorem rows_start0 (idx : IVec ⟨2, ![M, 1]⟩ w) (e : Fin M) (g : Fin C) :
    (rowScatterDims N M C wf).start (ix2 e g) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e g) ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the start index does not name, every window starts at `0`. -/
theorem rows_start1 (idx : IVec ⟨2, ![M, 1]⟩ w) (j : (⟨2, ![M, C]⟩ : Shape).Idx) :
    (rowScatterDims N M C wf).start j idx 1 = 0 := rfl

/-- Operand axis 0 is inserted: the window coordinate there is `0`. -/
theorem rows_window0 (j : (⟨2, ![M, C]⟩ : Shape).Idx) : (rowScatterDims N M C wf).window j 0 = 0 := rfl

/-- On operand axis 1 the window coordinate is the update's column. -/
theorem rows_window1 (j : (⟨2, ![M, C]⟩ : Shape).Idx) : (rowScatterDims N M C wf).window j 1 = (j 1).val := rfl

/-- WHERE AN UPDATE LANDS: update `(e, g)` lands on `(v, f)` exactly when the start word of row `e`, read signed, is `v`
    and `g = f`; a start word outside `[0, N)` lands nowhere. -/
theorem rows_resultIdx?_eq_some_iff (idx : IVec ⟨2, ![M, 1]⟩ w) (e : Fin M) (g : Fin C) (v : Fin N) (f : Fin C) :
    (rowScatterDims N M C wf).resultIdx? (ix2 e g) idx = some (ix2 v f)
      ↔ (idx (ix2 e (0 : Fin 1))).toInt = (v.val : ℤ) ∧ g = f := by
  have hs0 := rows_start0 wf idx e g
  have hs1 := rows_start1 wf idx (ix2 e g)
  have hw0 := rows_window0 wf (ix2 e g)
  have hw1 := rows_window1 wf (ix2 e g)
  have hg : ((ix2 e g : (⟨2, ![M, C]⟩ : Shape).Idx) 1).val = g.val := rfl
  have hvN : v.val < N := v.isLt
  have hgC : g.val < C := g.isLt
  have hsz0 : (⟨2, ![N, C]⟩ : Shape).size 0 = N := rfl
  have hsz1 : (⟨2, ![N, C]⟩ : Shape).size 1 = C := rfl
  unfold ScatterDims.resultIdx?
  split
  · rename_i h
    rw [Option.some.injEq]
    constructor
    · intro hfun
      have h0 := congrArg Fin.val (congrFun hfun 0)
      have h1 := congrArg Fin.val (congrFun hfun 1)
      have hv0 : ((ix2 v f : (⟨2, ![N, C]⟩ : Shape).Idx) 0).val = v.val := rfl
      have hf1 : ((ix2 v f : (⟨2, ![N, C]⟩ : Shape).Idx) 1).val = f.val := rfl
      simp only [hs0, hs1, hw0, hw1, hg, hv0, hf1] at h0 h1
      have hh := (h 0).1
      simp only [hs0, hw0] at hh
      refine ⟨by omega, Fin.ext (by omega)⟩
    · rintro ⟨ht, rfl⟩
      funext a
      refine Fin.ext ?_
      match a with
      | ⟨0, _⟩ =>
        show ((rowScatterDims N M C wf).start (ix2 e g) idx 0 + ((rowScatterDims N M C wf).window (ix2 e g) 0 : ℕ)).toNat = v.val
        rw [hs0, hw0, ht]; simp
      | ⟨1, _⟩ =>
        show ((rowScatterDims N M C wf).start (ix2 e g) idx 1 + ((rowScatterDims N M C wf).window (ix2 e g) 1 : ℕ)).toNat = g.val
        rw [hs1, hw1, hg]; simp
  · rename_i h
    constructor
    · intro hc; exact absurd hc (by simp)
    · rintro ⟨ht, rfl⟩
      exfalso; apply h
      intro a
      match a with
      | ⟨0, _⟩ =>
        show 0 ≤ (rowScatterDims N M C wf).start (ix2 e g) idx 0 + ((rowScatterDims N M C wf).window (ix2 e g) 0 : ℕ) ∧
          (rowScatterDims N M C wf).start (ix2 e g) idx 0 + ((rowScatterDims N M C wf).window (ix2 e g) 0 : ℕ) < ((⟨2, ![N, C]⟩ : Shape).size 0 : ℕ)
        rw [hs0, hw0, ht, hsz0]; omega
      | ⟨1, _⟩ =>
        show 0 ≤ (rowScatterDims N M C wf).start (ix2 e g) idx 1 + ((rowScatterDims N M C wf).window (ix2 e g) 1 : ℕ) ∧
          (rowScatterDims N M C wf).start (ix2 e g) idx 1 + ((rowScatterDims N M C wf).window (ix2 e g) 1 : ℕ) < ((⟨2, ![N, C]⟩ : Shape).size 1 : ℕ)
        rw [hs1, hw1, hg, hsz1]; omega

/-- THE ROW SCATTER-ADD READ AT `(v, f)`: the operand there plus the sum of `upd (e, f)` over the rows `e` whose start
    word, read signed, is `v`. -/
theorem scatterAdd_rows_apply {φ : FTy} (x : FVec Ideal ⟨2, ![N, C]⟩ φ) (idx : IVec ⟨2, ![M, 1]⟩ w)
    (upd : FVec Ideal ⟨2, ![M, C]⟩ φ) (v : Fin N) (f : Fin C) :
    Host.scatterAdd (rowScatterDims N M C wf) x idx upd (ix2 v f)
      = x (ix2 v f) + ∑ e ∈ Finset.univ.filter (fun e : Fin M => (idx (ix2 e (0 : Fin 1))).toInt = (v.val : ℤ)),
          upd (ix2 e f) := by
  show x (ix2 v f) + ∑ j ∈ Finset.univ.filter (fun j => (rowScatterDims N M C wf).resultIdx? j idx = some (ix2 v f)), upd j = _
  congr 1
  refine Finset.sum_nbij' (fun j => j 0) (fun e => ix2 e f) ?_ ?_ ?_ ?_ ?_
  · intro j hj
    obtain ⟨e, g, rfl⟩ : ∃ e g, j = ix2 e g := ⟨j 0, j 1, eq_ix2 j⟩
    rw [Finset.mem_filter] at hj
    show e ∈ _
    exact Finset.mem_filter.2 ⟨Finset.mem_univ _, ((rows_resultIdx?_eq_some_iff wf idx e g v f).1 hj.2).1⟩
  · intro e he
    rw [Finset.mem_filter] at he ⊢
    exact ⟨Finset.mem_univ _, (rows_resultIdx?_eq_some_iff wf idx e f v f).2 ⟨he.2, rfl⟩⟩
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl
  · intro e _
    rfl
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl

end Rows

/-! ## Scatter-add into a flat array: operand `[N]`, start words `[M, 1]`, updates `[M]` -/

/-- The dimension numbers of a flat scatter: no window axis; operand axis 0 is inserted and receives the start index,
    whose single component is read along axis 1 of the start words. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Flat
variable {N M w : Nat} (wf : ScatterDims.WF ⟨1, ![N]⟩ ⟨2, ![M, 1]⟩ ⟨1, ![M]⟩ [] [0] [0] 1)

/-- The window of update `e` starts at the start word of row `e`, read signed. -/
theorem flat_start0 (idx : IVec ⟨2, ![M, 1]⟩ w) (e : Fin M) :
    (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate is `0`. -/
theorem flat_window0 (j : (⟨1, ![M]⟩ : Shape).Idx) : (flatScatterDims N M wf).window j 0 = 0 := rfl

/-- WHERE AN UPDATE LANDS: update `e` lands on `v` exactly when the start word of row `e`, read signed, is `v`. -/
theorem flat_resultIdx?_eq_some_iff (idx : IVec ⟨2, ![M, 1]⟩ w) (e : Fin M) (v : Fin N) :
    (flatScatterDims N M wf).resultIdx? (ix1 e) idx = some (ix1 v)
      ↔ (idx (ix2 e (0 : Fin 1))).toInt = (v.val : ℤ) := by
  have hs0 := flat_start0 wf idx e
  have hw0 := flat_window0 wf (ix1 e)
  have hvN : v.val < N := v.isLt
  have hsz0 : (⟨1, ![N]⟩ : Shape).size 0 = N := rfl
  unfold ScatterDims.resultIdx?
  split
  · rename_i h
    rw [Option.some.injEq]
    constructor
    · intro hfun
      have h0 := congrArg Fin.val (congrFun hfun 0)
      have hv0 : ((ix1 v : (⟨1, ![N]⟩ : Shape).Idx) 0).val = v.val := rfl
      simp only [hs0, hw0, hv0] at h0
      have hh := (h 0).1
      simp only [hs0, hw0] at hh
      omega
    · intro ht
      funext a
      refine Fin.ext ?_
      match a with
      | ⟨0, _⟩ =>
        show ((flatScatterDims N M wf).start (ix1 e) idx 0 + ((flatScatterDims N M wf).window (ix1 e) 0 : ℕ)).toNat = v.val
        rw [hs0, hw0, ht]; simp
  · rename_i h
    constructor
    · intro hc; exact absurd hc (by simp)
    · intro ht
      exfalso; apply h
      intro a
      match a with
      | ⟨0, _⟩ =>
        show 0 ≤ (flatScatterDims N M wf).start (ix1 e) idx 0 + ((flatScatterDims N M wf).window (ix1 e) 0 : ℕ) ∧
          (flatScatterDims N M wf).start (ix1 e) idx 0 + ((flatScatterDims N M wf).window (ix1 e) 0 : ℕ) < ((⟨1, ![N]⟩ : Shape).size 0 : ℕ)
        rw [hs0, hw0, ht, hsz0]; omega

/-- THE FLAT SCATTER-ADD READ AT `v`: the operand there plus the sum of `upd e` over the `e` whose start word, read
    signed, is `v`. -/
theorem scatterAdd_flat_apply {φ : FTy} (x : FVec Ideal ⟨1, ![N]⟩ φ) (idx : IVec ⟨2, ![M, 1]⟩ w)
    (upd : FVec Ideal ⟨1, ![M]⟩ φ) (v : Fin N) :
    Host.scatterAdd (flatScatterDims N M wf) x idx upd (ix1 v)
      = x (ix1 v) + ∑ e ∈ Finset.univ.filter (fun e : Fin M => (idx (ix2 e (0 : Fin 1))).toInt = (v.val : ℤ)),
          upd (ix1 e) := by
  show x (ix1 v) + ∑ j ∈ Finset.univ.filter (fun j => (flatScatterDims N M wf).resultIdx? j idx = some (ix1 v)), upd j = _
  congr 1
  refine Finset.sum_nbij' (fun j => j 0) (fun e => ix1 e) ?_ ?_ ?_ ?_ ?_
  · intro j hj
    obtain ⟨e, rfl⟩ : ∃ e, j = ix1 e := ⟨j 0, eq_ix1 j⟩
    rw [Finset.mem_filter] at hj
    show e ∈ _
    exact Finset.mem_filter.2 ⟨Finset.mem_univ _, (flat_resultIdx?_eq_some_iff wf idx e v).1 hj.2⟩
  · intro e he
    rw [Finset.mem_filter] at he ⊢
    exact ⟨Finset.mem_univ _, (flat_resultIdx?_eq_some_iff wf idx e v).2 he.2⟩
  · intro j _
    exact (eq_ix1 j).symm
  · intro e _
    rfl
  · intro j _
    exact congrArg upd (eq_ix1 j)

end Flat

/-! ## Gather of rows: operand `[N, C]`, start words `[M, 1]`, result `[M, C]` -/

/-- The dimension numbers of a row gather: result axis 1 is the offset axis and reads operand axis 1 over its whole
    width `C`; operand axis 0 is collapsed (a slice of one row) and receives the start index, whose single component is
    read along axis 1 of the start words. Their conditions `wf` are decided on literal sizes. -/
abbrev rowGatherDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at column `f` of the row named by the start word of row `e`, read
    signed and clamped into `[0, N − 1]`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGatherDims N M C wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N M C wf).start (ix2 e f) idx 0 + (rowGatherDims N M C wf).batchCoord (ix2 e f) 0
      + (rowGatherDims N M C wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e f) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e f) idx 1 + (rowGatherDims N M C wf).batchCoord (ix2 e f) 1
      + (rowGatherDims N M C wf).offCoord (ix2 e f) 1 = f.val
    rw [GatherDims.batchCoord_eq_zero _ _ _ List.not_mem_nil]
    have hst : (rowGatherDims N M C wf).start (ix2 e f) idx 1 = 0 := rfl
    have hoff : (rowGatherDims N M C wf).offCoord (ix2 e f) 1 = f.val := rfl
    rw [hst, hoff]; simp

/-! ## Gather from a flat array: operand `[N]`, start words `[M, 1]`, result `[M]` -/

/-- The dimension numbers of a flat gather: no offset axis; the one operand axis is collapsed and receives the start
    index, whose single component is read along axis 1 of the start words. -/
abbrev flatGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start word of row `e`, read signed and clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A record written out at literal sizes is the generic one -/

/-- At literal sizes the dimension numbers written out field by field, their conditions decided, are the generic record:
    the two agree field for field, and the conditions are a proposition. -/
example :
    ({ updateWindowDims := [1], insertedWindowDims := [0], scatterDimsToOperandDims := [0], indexVectorDim := 1,
       wf := by decide } : ScatterDims ⟨2, ![50000, 64]⟩ ⟨2, ![850000, 1]⟩ ⟨2, ![850000, 64]⟩)
      = rowScatterDims 50000 850000 64 (by decide) := rfl

/-- Likewise for a gather's. -/
example :
    ({ offsetDims := [1], collapsedSliceDims := [0], operandBatchingDims := [], startIndicesBatchingDims := [],
       startIndexMap := [0], indexVectorDim := 1, sliceSizes := ![1, 64],
       wf := by decide } : GatherDims ⟨2, ![50000, 64]⟩ ⟨2, ![800000, 1]⟩ ⟨2, ![800000, 64]⟩)
      = rowGatherDims 50000 800000 64 (by decide) := rfl

end Cert.Lib.ScatterGather

end
-- ==== Proof.GcnAlgebra.lean ====
/-
  THE ALGEBRA OF THE SYMMETRIC NORMALISATION, on the extended reals.

  Write `d v` for the inverse square root of node `v`'s degree. One program weights the message along an edge
  `e : r → v` by `d r · d v` and then adds the weighted messages of the edges into `v`; the other scales every source row
  by `d r` first, adds the scaled rows of the edges into `v`, and multiplies the sum by `d v` afterwards. The two agree
  because `d v` does not depend on the edge and can be taken out of the sum — distributivity, which on the extended
  reals fails for an infinite factor (`⊤ · (1 + (-1)) = 0` but `⊤ · 1 + ⊤ · (-1) = ⊥`). It does hold for a factor that is a
  non-negative real, whatever the summands are, and `d v` is one: a degree is a finite sum of ones, so it is a
  non-negative real, and the inverse square root of a positive real is a positive real (a zero degree is sent to `0` by
  the guard `deg > 0`).
-/
import Idealize.ShloMosaic.PureOps.Ideal
import Idealize.ShloMosaic.PureOps.Ideal.Laws

noncomputable section

open scoped BigOperators

namespace Cert.Gcn.Algebra

open Idealize.ShloMosaic

/-- A non-negative real factor goes through a finite sum of extended reals, whatever the summands. -/
theorem mul_sum_of_nonneg_of_ne_top {ι : Type} (s : Finset ι) (d : EReal) (h0 : 0 ≤ d) (ht : d ≠ ⊤) (a : ι → EReal) :
    d * ∑ e ∈ s, a e = ∑ e ∈ s, d * a e := by
  classical
  induction s using Finset.induction_on with
  | empty => simp
  | insert e s he ih =>
    rw [Finset.sum_insert he, Finset.sum_insert he, EReal.left_distrib_of_nonneg_of_ne_top h0 ht, ih]

/-- THE LAW. With `d` a non-negative real: the messages `h e · (b e · d)` added over a set of edges are `d` times the
    scaled rows `h e · b e` added over it. -/
theorem sum_weighted_eq (ι : Type) (s : Finset ι) (d : EReal) (h0 : 0 ≤ d) (ht : d ≠ ⊤) (h b : ι → EReal) :
    ∑ e ∈ s, h e * (b e * d) = d * ∑ e ∈ s, h e * b e := by
  rw [mul_sum_of_nonneg_of_ne_top s d h0 ht]
  refine Finset.sum_congr rfl fun e _ => ?_
  rw [← mul_assoc, mul_comm]

/-- The word `0x3F800000` denotes the real `1`. -/
theorem ofBits_one_f32 : Ideal.ofBits .f32 0x3F800000#32 = 1 := by
  simp [Ideal.ofBits, Ideal.ieee]
  rw [← EReal.coe_mul, ← EReal.coe_one]
  congr 1
  norm_num

/-- A sum of ones over a finite set is a non-negative real: the number of its elements. -/
theorem sum_ones {ι : Type} (s : Finset ι) : ∑ _e ∈ s, (1 : EReal) = ((s.card : ℝ) : EReal) := by
  classical
  induction s using Finset.induction_on with
  | empty => simp
  | insert e s he ih =>
    rw [Finset.sum_insert he, ih, Finset.card_insert_of_notMem he]
    push_cast
    rw [add_comm]

/-- THE INVERSE ROOT OF A COUNT, guarded at zero, is a non-negative real: for `n > 0` it is `(√n)⁻¹`, for `n = 0` the
    guard gives `0`. -/
theorem guarded_rsqrt_count (n : ℕ) (z z' : EReal) (hz : z = 0) (hz' : z' = 0) :
    0 ≤ Scalar.select (Ideal.cmp .ogt ((n : ℝ) : EReal) z) (Ideal.rsqrt ((n : ℝ) : EReal)) z'
    ∧ Scalar.select (Ideal.cmp .ogt ((n : ℝ) : EReal) z) (Ideal.rsqrt ((n : ℝ) : EReal)) z' ≠ ⊤ := by
  subst hz
  subst hz'
  by_cases hn : n = 0
  · subst hn
    simp [Ideal.cmp, Scalar.select]
  · have hpos : (0 : ℝ) < (n : ℝ) := by exact_mod_cast Nat.pos_of_ne_zero hn
    have hc : Ideal.cmp .ogt ((n : ℝ) : EReal) 0 = 1#1 := by
      simp [Ideal.cmp, Nat.pos_of_ne_zero hn]
    rw [hc]
    have hr : Ideal.rsqrt ((n : ℝ) : EReal) = (((Real.sqrt n)⁻¹ : ℝ) : EReal) := by
      rw [Ideal.rsqrt_coe, if_neg (not_lt.mpr hpos.le), if_neg hpos.ne']
    rw [show ∀ a b : EReal, Scalar.select 1#1 a b = a from fun a b => if_pos rfl, hr]
    exact ⟨EReal.coe_nonneg.mpr (inv_nonneg.mpr (Real.sqrt_nonneg _)), EReal.coe_ne_top _⟩

end Cert.Gcn.Algebra

end
-- ==== Proof.GcnEdges.lean ====
/-
  THE EDGE LIST, AS BOTH PROGRAMS READ IT.

  Both programs turn the edge list into two lists of 3,300,000 node words — the sources `row` and the targets `col`, the
  100,000 self-loops appended to each — and use them in two ways. A SCATTER-ADD takes the target word of edge `e` as it
  is, read signed: the edge's update lands on node `v` exactly when the word is `v`, and an edge whose word names no
  node is dropped. A GATHER first wraps a negative word once (adds 100,000) and then clamps it into `[0, 99999]`.
  Three facts follow, all that the comparison needs of the edge list:
    * for an edge that lands on `v`, the wrapped and clamped target word is `v` itself (`target_of_mem`): the word is
      `v ≥ 0`, so it is not wrapped, and `v ≤ 99999`, so it is not clamped;
    * the degree of `v` — ones added along `col` onto zeros — is the number of edges that land on `v` (`deg_apply`);
    * so the guarded inverse root of the degree is a non-negative real (`dinv_nonneg`).
-/
import proofs.«141884_j71210557767875_2_alg».proof.Proof.RefRead
import proofs.«141884_j71210557767875_2_alg».proof.Proof.LibScatterGather
import proofs.«141884_j71210557767875_2_alg».proof.Proof.GcnAlgebra
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.ValueIdx

namespace Cert.Gcn.Edges

open Cert.ReferenceIdeal Cert.ReferenceIdeal.ReadP Cert.Lib.ScatterGather Cert.Gcn.Algebra

variable (ei : (⟨S2x3200000, .i32⟩ : BufTy).Contents (Elt Ideal))

/-! ## The node lists read at one edge -/

/-- The node a gather's start word names: the word read signed, clamped into `[0, 99999]`. -/
def nodeOf (w : BitVec 32) : Fin 100000 := ⟨min w.toInt.toNat (100000 - 1), by omega⟩

/-- The edges (the self-loops among them) whose target word, read signed, is `v`. -/
def edgesInto (v : Fin 100000) : Finset (Fin 3300000) :=
  Finset.univ.filter fun e : Fin 3300000 => (val_main_v6 (F := Ideal) ei (ix1 e)).toInt = (v.val : ℤ)

/-- The start words of both scatters are the target list `col`, one word per edge. -/
theorem v42_at (e : Fin 3300000) : val_main_v42 (F := Ideal) ei (ix2 e (0 : Fin 1)) = val_main_v6 (F := Ideal) ei (ix1 e) :=
  (val_main_v42_apply ei _).trans (congrArg _ (funext fun a => match a with | ⟨0, _⟩ => rfl))
theorem v9_at (e : Fin 3300000) : val_main_v9 (F := Ideal) ei (ix2 e (0 : Fin 1)) = val_main_v6 (F := Ideal) ei (ix1 e) :=
  (val_main_v9_apply ei _).trans (congrArg _ (funext fun a => match a with | ⟨0, _⟩ => rfl))
/-- The start words of the row gather and of the first scale gather are the source list `row`, a negative word wrapped once. -/
theorem v36_at (e : Fin 3300000) : val_main_v36 (F := Ideal) ei (ix2 e (0 : Fin 1)) = val_main_v35 (F := Ideal) ei (ix1 e) :=
  (val_main_v36_apply ei _).trans (congrArg _ (funext fun a => match a with | ⟨0, _⟩ => rfl))
theorem v20_at (e : Fin 3300000) : val_main_v20 (F := Ideal) ei (ix2 e (0 : Fin 1)) = val_main_v35 (F := Ideal) ei (ix1 e) :=
  (val_main_v20_apply ei _).trans (congrArg _ (funext fun a => match a with | ⟨0, _⟩ => rfl))
/-- The start words of the second scale gather are the target list, a negative word wrapped once. -/
theorem v27_at (e : Fin 3300000) : val_main_v27 (F := Ideal) ei (ix2 e (0 : Fin 1)) = val_main_v26 (F := Ideal) ei (ix1 e) :=
  (val_main_v27_apply ei _).trans (congrArg _ (funext fun a => match a with | ⟨0, _⟩ => rfl))

/-- A TARGET WORD THAT NAMES A NODE IS NOT WRAPPED: if edge `e`'s target word, read signed, is the node `v`, the wrapped
    word is the word itself, and it clamps to `v`. -/
theorem target_of_mem (v : Fin 100000) (e : Fin 3300000) (he : e ∈ edgesInto ei v) :
    nodeOf (val_main_v26 (F := Ideal) ei (ix1 e)) = v := by
  have hw : (val_main_v6 (F := Ideal) ei (ix1 e)).toInt = (v.val : ℤ) := (Finset.mem_filter.mp he).2
  rw [val_main_v26_apply, val_main_v23_apply, val_main_v22_apply, val_main_c_4_apply]
  generalize val_main_v6 (F := Ideal) ei (ix1 e) = w at hw ⊢
  have hc : IntOp.cmpi .slt w 0#32 = 0#1 := by
    have hnn : ((v.val : ℤ) < 0) = False := eq_false (by omega)
    simp [IntOp.cmpi, BitVec.slt, hw, hnn]
  rw [hc, select_zero]
  apply Fin.ext
  have hv : v.val < 100000 := v.isLt
  show min w.toInt.toNat (100000 - 1) = v.val
  rw [hw]
  simp only [Int.toNat_natCast]
  omega

/-! ## The degrees -/

set_option maxRecDepth 65536 in
/-- The printed dimension numbers of the degree scatter are the generic flat ones at these sizes. -/
theorem flat_scatter_rec :
    scatter_S100000_S3300000x1_S3300000_n_0_0_1
      = flatScatterDims 100000 3300000 scatter_S100000_S3300000x1_S3300000_n_0_0_1.wf := rfl

/-- THE DEGREE of `v` is the number of edges into it: the scatter adds a `1` per edge onto a zero. -/
theorem deg_apply (v : Fin 100000) :
    val_main_v10 (F := Ideal) ei (ix1 v) = (((edgesInto ei v).card : ℝ) : EReal) := by
  unfold val_main_v10
  rw [flat_scatter_rec]
  refine (scatterAdd_flat_apply scatter_S100000_S3300000x1_S3300000_n_0_0_1.wf (val_main_v8 (F := Ideal))
    (val_main_v9 (F := Ideal) ei) (val_main_v7 (F := Ideal)) v).trans ?_
  have h0 : val_main_v8 (F := Ideal) (ix1 v) = 0 := by
    rw [val_main_v8_apply, val_main_cst_0_apply]; exact Ideal.ofBits_zero_f32
  have h1 : ∀ e : Fin 3300000, val_main_v7 (F := Ideal) (ix1 e) = 1 := fun e => by
    rw [val_main_v7_apply, val_main_cst_apply]; exact ofBits_one_f32
  rw [h0, zero_add]
  simp only [v9_at, h1]
  exact sum_ones (edgesInto ei v)

/-- The inverse root degree of node `n`. -/
def dinv (n : Fin 100000) : EReal := val_main_v14 (F := Ideal) ei (ix1 n)

/-- It is a non-negative real. -/
theorem dinv_nonneg (v : Fin 100000) : 0 ≤ dinv ei v ∧ dinv ei v ≠ ⊤ := by
  unfold dinv
  rw [val_main_v14_apply, val_main_v12_apply, val_main_v13_apply, deg_apply]
  refine guarded_rsqrt_count _ _ _ ?_ ?_
  · rw [val_main_v11_apply, val_main_cst_1_apply]; exact Ideal.ofBits_zero_f32
  · rw [val_main_call0_v1_apply, val_main_call0_v0_apply, val_main_cst_2_apply]; exact Ideal.ofBits_zero_f32

/-! ## A vector as a one-column matrix -/

/-- An `[a]` vector cast to `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Gcn.Edges

end
-- ==== Proof.GcnBridge.lean ====
/-
  THE TWO PROGRAMS COMPUTE ONE FUNCTION (at the extended reals).

  Write `h = x · w` (a row per node), `d n` for the inverse root degree of node `n`, `s e` for the source node of edge `e`
  and `E v` for the edges that land on node `v`.
    * The kernel's aggregated row of `v` is `Σ_{e ∈ E v} h (s e) · d (s e)` (`aggRows_apply`): the first call's rows
      `h n · d n`, gathered along the sources and added into the targets. The second call then forms `d v · (that sum)`.
    * The reference's aggregated row of `v` is `Σ_{e ∈ E v} h (s e) · (d (s e) · d (t e))` (`v43_apply`), `t e` the wrapped
      and clamped target of `e` — which for `e ∈ E v` is `v`.
  Since `d v` is a non-negative real it goes through the sum, so the reference's row is `d v` times the kernel's
  (`v43_eq`). Everything after that — the bias, the cut at zero, the second matrix product, the second bias — is the
  same expression of the aggregated row on both sides.
-/
import proofs.«141884_j71210557767875_2_alg».proof.Proof.RefRead
import proofs.«141884_j71210557767875_2_alg».proof.Proof.KernelValue
import proofs.«141884_j71210557767875_2_alg».proof.Proof.LibScatterGather
import proofs.«141884_j71210557767875_2_alg».proof.Proof.GcnAlgebra
import proofs.«141884_j71210557767875_2_alg».proof.Proof.GcnEdges
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.ValueIdx

namespace Cert.Gcn.Bridge

open Cert.ReferenceIdeal Cert.ReferenceIdeal.ReadP Cert.Lib.ScatterGather Cert.Gcn.Algebra Cert.Gcn.Edges

variable (x : (⟨S100000x256, .f32⟩ : BufTy).Contents (Elt Ideal)) (ei : (⟨S2x3200000, .i32⟩ : BufTy).Contents (Elt Ideal))
  (wg : (⟨S256x64, .f32⟩ : BufTy).Contents (Elt Ideal)) (bg : (⟨S64, .f32⟩ : BufTy).Contents (Elt Ideal))
  (wl : (⟨S64x64, .f32⟩ : BufTy).Contents (Elt Ideal)) (bl : (⟨S64, .f32⟩ : BufTy).Contents (Elt Ideal))

/-- Entry `(n, k)` of the product `x · w`. -/
def xw (n : Fin 100000) (k : Fin 64) : EReal := ∑ j : Fin 256, x (ix2 n j) * wg (ix2 j k)

/-- The source node of edge `e`: its source word, a negative one wrapped once, clamped into the array. -/
def srcOf (e : Fin 3300000) : Fin 100000 := nodeOf (val_main_v35 (F := Ideal) ei (ix1 e))

/-! ## The printed dimension numbers are the generic ones at these sizes -/

set_option maxRecDepth 65536 in
theorem k_scatter_rec :
    Cert.KernelIdeal.scatter_S100000x64_S3300000x1_S3300000x64_1_0_0_1
      = rowScatterDims 100000 3300000 64 Cert.KernelIdeal.scatter_S100000x64_S3300000x1_S3300000x64_1_0_0_1.wf := rfl
set_option maxRecDepth 65536 in
theorem k_gather_rec :
    Cert.KernelIdeal.gather_S100000x64_S3300000x1_S3300000x64_1_0_n_n_0_1_164
      = rowGatherDims 100000 3300000 64 Cert.KernelIdeal.gather_S100000x64_S3300000x1_S3300000x64_1_0_n_n_0_1_164.wf := rfl
set_option maxRecDepth 65536 in
theorem r_scatter_rec :
    scatter_S100000x64_S3300000x1_S3300000x64_1_0_0_1
      = rowScatterDims 100000 3300000 64 scatter_S100000x64_S3300000x1_S3300000x64_1_0_0_1.wf := rfl
set_option maxRecDepth 65536 in
theorem r_gather_rec :
    gather_S100000x64_S3300000x1_S3300000x64_1_0_n_n_0_1_164
      = rowGatherDims 100000 3300000 64 gather_S100000x64_S3300000x1_S3300000x64_1_0_n_n_0_1_164.wf := rfl
set_option maxRecDepth 65536 in
theorem r_flat_gather_rec :
    gather_S100000_S3300000x1_S3300000_n_0_n_n_0_1_1
      = flatGatherDims 100000 3300000 gather_S100000_S3300000x1_S3300000_n_0_n_n_0_1_1.wf := rfl

/-! ## The four reads, over variables, with the clamp named -/

theorem k_scatter_at (X : FVec Ideal Cert.KernelIdeal.S100000x64 .f32) (I : IVec Cert.KernelIdeal.S3300000x1 32)
    (U : FVec Ideal Cert.KernelIdeal.S3300000x64 .f32) (v : Fin 100000) (k : Fin 64) :
    Host.scatterAdd (F := Ideal) Cert.KernelIdeal.scatter_S100000x64_S3300000x1_S3300000x64_1_0_0_1 X I U (ix2 v k)
      = X (ix2 v k) + ∑ e ∈ Finset.univ.filter (fun e : Fin 3300000 => (I (ix2 e (0 : Fin 1))).toInt = (v.val : ℤ)), U (ix2 e k) := by
  rw [k_scatter_rec]
  exact scatterAdd_rows_apply _ X I U v k

theorem r_scatter_at (X : FVec Ideal S100000x64 .f32) (I : IVec S3300000x1 32)
    (U : FVec Ideal S3300000x64 .f32) (v : Fin 100000) (k : Fin 64) :
    Host.scatterAdd (F := Ideal) scatter_S100000x64_S3300000x1_S3300000x64_1_0_0_1 X I U (ix2 v k)
      = X (ix2 v k) + ∑ e ∈ Finset.univ.filter (fun e : Fin 3300000 => (I (ix2 e (0 : Fin 1))).toInt = (v.val : ℤ)), U (ix2 e k) := by
  rw [r_scatter_rec]
  exact scatterAdd_rows_apply _ X I U v k

theorem k_gather_at {α : Type} (X : Cert.KernelIdeal.S100000x64.Idx → α) (I : IVec Cert.KernelIdeal.S3300000x1 32)
    (e : Fin 3300000) (k : Fin 64) :
    Host.gather Cert.KernelIdeal.gather_S100000x64_S3300000x1_S3300000x64_1_0_n_n_0_1_164 X I (ix2 e k)
      = X (ix2 (nodeOf (I (ix2 e (0 : Fin 1)))) k) := by
  rw [k_gather_rec]
  exact gather_rows_apply (by decide) _ X I e k

theorem r_gather_at {α : Type} (X : S100000x64.Idx → α) (I : IVec S3300000x1 32)
    (e : Fin 3300000) (k : Fin 64) :
    Host.gather gather_S100000x64_S3300000x1_S3300000x64_1_0_n_n_0_1_164 X I (ix2 e k)
      = X (ix2 (nodeOf (I (ix2 e (0 : Fin 1)))) k) := by
  rw [r_gather_rec]
  exact gather_rows_apply (by decide) _ X I e k

theorem r_flat_gather_at {α : Type} (X : S100000.Idx → α) (I : IVec S3300000x1 32) (e : Fin 3300000) :
    Host.gather gather_S100000_S3300000x1_S3300000_n_0_n_n_0_1_1 X I (ix1 e) = X (ix1 (nodeOf (I (ix2 e (0 : Fin 1))))) := by
  rw [r_flat_gather_rec]
  exact gather_flat_apply (by decide) _ X I e

/-- The scatter's operand is zero everywhere. -/
theorem zeros_at (i : S100000x64.Idx) : val_main_v41 (F := Ideal) i = 0 := by
  rw [val_main_v41_apply, val_main_cst_8_apply]; exact Ideal.ofBits_zero_f32

/-! ## The kernel's aggregated rows -/

/-- The first call's rows: row `n` of `x · w` scaled by the inverse root degree of `n`. -/
theorem scaledRows_at (h : Cert.KernelIdeal.S100000.ShapeCasts Cert.KernelIdeal.S100000x1) (n : Fin 100000) (k : Fin 64) :
    Cert.KernelIdeal.Region0.scaledRows x wg (shapeCast _ (val_main_v14 (F := Ideal) ei) h) (ix2 n k)
      = xw x wg n k * dinv ei n := by
  show (∑ j : Fin 256, x (ix2 n j) * wg (ix2 j k)) * _ = _
  exact congrArg (fun u : EReal => xw x wg n k * u) (shapeCast_a_a1_apply _ h n (0 : Fin 1))

theorem aggRows_apply (v : Fin 100000) (k : Fin 64) :
    Cert.KernelIdeal.KValue.aggRows x ei wg (ix2 v k)
      = ∑ e ∈ edgesInto ei v, xw x wg (srcOf ei e) k * dinv ei (srcOf ei e) := by
  unfold Cert.KernelIdeal.KValue.aggRows
  refine (k_scatter_at _ _ _ v k).trans ?_
  rw [zeros_at, zero_add]
  simp only [v42_at]
  refine Finset.sum_congr rfl fun e _ => ?_
  rw [extf_apply]
  refine (k_gather_at _ _ e k).trans ?_
  rw [v36_at]
  exact scaledRows_at x ei wg _ (srcOf ei e) k

/-! ## The reference's aggregated rows -/

theorem v43_apply (v : Fin 100000) (k : Fin 64) :
    val_main_v43 (F := Ideal) x ei wg (ix2 v k)
      = ∑ e ∈ edgesInto ei v,
          xw x wg (srcOf ei e) k * (dinv ei (srcOf ei e) * dinv ei (nodeOf (val_main_v26 (F := Ideal) ei (ix1 e)))) := by
  unfold val_main_v43
  refine (r_scatter_at _ _ _ v k).trans ?_
  rw [zeros_at, zero_add]
  simp only [v42_at]
  refine Finset.sum_congr rfl fun e _ => ?_
  rw [val_main_v40_apply]
  show val_main_v37 (F := Ideal) x ei wg (ix2 e k) * val_main_v39 (F := Ideal) ei (ix2 e k) = _
  refine congrArg₂ (fun a b : EReal => a * b) ?_ ?_
  · unfold val_main_v37
    refine (r_gather_at _ _ e k).trans ?_
    rw [v36_at, val_main_v30_apply]
    refine Finset.sum_congr rfl fun j _ => ?_
    refine congrArg₂ (fun a b : EReal => a * b) (congrArg x ?_) (congrArg wg ?_)
    · funext a
      match a with
      | ⟨0, _⟩ => rfl
      | ⟨1, _⟩ => rfl
    · funext a
      match a with
      | ⟨0, _⟩ => rfl
      | ⟨1, _⟩ => rfl
  · rw [val_main_v39_apply, val_main_v38_apply, val_main_v29_apply]
    have hidx : idx_main_v38 (idx_main_v39 (ix2 e k)) = ix1 e := funext fun a => match a with | ⟨0, _⟩ => rfl
    rw [hidx]
    show val_main_v21 (F := Ideal) ei (ix1 e) * val_main_v28 (F := Ideal) ei (ix1 e) = _
    refine congrArg₂ (fun a b : EReal => a * b) ?_ ?_
    · unfold val_main_v21
      refine (r_flat_gather_at _ _ e).trans ?_
      rw [v20_at]
      rfl
    · unfold val_main_v28
      refine (r_flat_gather_at _ _ e).trans ?_
      rw [v27_at]
      rfl

/-- THE JOIN: the reference's aggregated row is the node's inverse root degree times the kernel's. -/
theorem v43_eq (v : Fin 100000) (k : Fin 64) :
    val_main_v43 (F := Ideal) x ei wg (ix2 v k) = dinv ei v * Cert.KernelIdeal.KValue.aggRows x ei wg (ix2 v k) := by
  rw [v43_apply, aggRows_apply]
  obtain ⟨h0, ht⟩ := dinv_nonneg ei v
  rw [← sum_weighted_eq _ (edgesInto ei v) (dinv ei v) h0 ht (fun e => xw x wg (srcOf ei e) k) (fun e => dinv ei (srcOf ei e))]
  refine Finset.sum_congr rfl fun e he => ?_
  rw [target_of_mem ei v e he]

/-! ## The results -/

/-- The second call's function at `(v, f)`, written over plain coordinates. -/
theorem reluLinear_at (a : (⟨Cert.KernelIdeal.S100000x64, .f32⟩ : BufTy).Contents (Elt Ideal))
    (d : (⟨Cert.KernelIdeal.S100000x1, .f32⟩ : BufTy).Contents (Elt Ideal))
    (b₁ : (⟨Cert.KernelIdeal.S1x64, .f32⟩ : BufTy).Contents (Elt Ideal)) (w : (⟨Cert.KernelIdeal.S64x64, .f32⟩ : BufTy).Contents (Elt Ideal))
    (b₂ : (⟨Cert.KernelIdeal.S1x64, .f32⟩ : BufTy).Contents (Elt Ideal)) (v : Fin 100000) (f : Fin 64) :
    Cert.KernelIdeal.Region1.reluLinear a d b₁ w b₂ (ix2 v f)
      = (∑ k : Fin 64, max (d (ix2 v (0 : Fin 1)) * a (ix2 v k) + b₁ (ix2 (0 : Fin 1) k)) 0 * w (ix2 k f))
        + b₂ (ix2 (0 : Fin 1) f) := rfl

/-- THE KERNEL'S RESULT IS THE REFERENCE'S, index by index. -/
theorem kernelOut_eq :
    Cert.KernelIdeal.KValue.kernelOut x ei wg bg wl bl = val_main_v51 (F := Ideal) x ei wg bg wl bl := by
  funext i
  obtain ⟨v, f, rfl⟩ : ∃ (v : Fin 100000) (f : Fin 64), i = ix2 v f := ⟨i 0, i 1, eq_ix2 i⟩
  unfold Cert.KernelIdeal.KValue.kernelOut
  rw [reluLinear_at, val_main_v51_apply, val_main_v48_apply]
  show _ = (∑ k : Fin 64, val_main_v47 (F := Ideal) x ei wg bg (lidx_main_v48 (ix2 v f) k) * wl (ridx_main_v48 (ix2 v f) k))
    + val_main_v50 (F := Ideal) bl (ix2 v f)
  refine congrArg₂ (fun a b : EReal => a + b) (Finset.sum_congr rfl fun k _ => ?_) ?_
  · have hl : lidx_main_v48 (ix2 v f) k = ix2 v k := funext fun a => match a with
      | ⟨0, _⟩ => rfl
      | ⟨1, _⟩ => rfl
    have hr : ridx_main_v48 (ix2 v f) k = ix2 k f := funext fun a => match a with
      | ⟨0, _⟩ => rfl
      | ⟨1, _⟩ => rfl
    rw [hl, hr, val_main_v47_apply, val_main_v46_apply, v43_eq, val_main_call1_v0_apply, val_main_call1_cst_apply,
      val_main_v45_apply, val_main_v44_apply]
    have hb : idx_main_v44 (idx_main_v45 (ix2 v k)) = ix1 k := funext fun a => match a with | ⟨0, _⟩ => rfl
    rw [hb]
    show _ = max (dinv ei v * Cert.KernelIdeal.KValue.aggRows x ei wg (ix2 v k) + bg (ix1 k)) (Ideal.ofBits .f32 0x00000000#32) * wl (ix2 k f)
    rw [Ideal.ofBits_zero_f32, shapeCast_a_a1_apply _ _ v (0 : Fin 1), shapeCast_a_1a_apply _ _ (0 : Fin 1) k]
    rfl
  · rw [val_main_v50_apply, val_main_v49_apply]
    have hb : idx_main_v49 (idx_main_v50 (ix2 v f)) = ix1 f := funext fun a => match a with | ⟨0, _⟩ => rfl
    rw [hb]
    exact shapeCast_a_1a_apply _ _ (0 : Fin 1) f

end Cert.Gcn.Bridge

end
-- ==== Proof.lean ====
/-
  A GRAPH CONVOLUTION AND A LINEAR HEAD: the tiled kernel program against the plain one, over the extended reals.

  Both programs take node features `x` (100000 × 256), an edge list (2 × 3200000 node words), weights `w` (256 × 64) with a
  bias, and weights `u` (64 × 64) with a bias. With the self-loops appended to the edge list, `deg v` the number of edges
  into `v`, and `d v = 1/√(deg v)` (zero where the degree is zero), both compute
      out = max (agg + bias₁) 0 · u + bias₂ ,
  where row `v` of `agg` collects, over the edges `r → v`, row `r` of `x · w` weighted by `d r · d v`. The plain program
  forms the weight `d r · d v` per edge and adds the weighted rows. The kernel program scales row `r` of `x · w` by `d r`
  inside its first pallas_call, adds the scaled rows of the edges into `v` on the host, and multiplies by `d v` inside its
  second pallas_call, which also adds the bias, cuts at zero and applies `u`. The two agree because `d v`, a non-negative
  real, can be taken out of the sum over the edges into `v` (Proof/GcnAlgebra.lean, Proof/GcnBridge.lean); changes of
  float format are the identity on the extended reals, and a matrix product is the same sum however it is tiled.

  The claims: the three frames (the two kernel programs' from the generated frame modules, the plain program's from its
  run); `preserves`, which asks nothing here (the idealization rewrote no operation); and `algebraic`: the kernel
  program's run ends with its result array at one function of the arguments (Proof/KernelValue.lean), the plain
  program's at another (its run and its operations read one at a time), and the two functions are equal index by index.
  The precondition (every float input finite) is never opened: the one law used holds for all extended reals.
-/
import proofs.«141884_j71210557767875_2_alg».proof.Defs
import proofs.«141884_j71210557767875_2_alg».proof.Proof.Gen.Kernel
import proofs.«141884_j71210557767875_2_alg».proof.Proof.Gen.Kernel.Skeleton
import proofs.«141884_j71210557767875_2_alg».proof.Proof.Gen.Kernel.Launch
import proofs.«141884_j71210557767875_2_alg».proof.Proof.Gen.Kernel.Points
import proofs.«141884_j71210557767875_2_alg».proof.Proof.Gen.Kernel.Frame
import proofs.«141884_j71210557767875_2_alg».proof.Proof.Gen.KernelIdeal
import proofs.«141884_j71210557767875_2_alg».proof.Proof.Gen.KernelIdeal.Skeleton
import proofs.«141884_j71210557767875_2_alg».proof.Proof.Gen.KernelIdeal.Launch
import proofs.«141884_j71210557767875_2_alg».proof.Proof.Gen.KernelIdeal.Points
import proofs.«141884_j71210557767875_2_alg».proof.Proof.Gen.KernelIdeal.Frame
import proofs.«141884_j71210557767875_2_alg».proof.Proof.Gen.ReferenceIdeal
import proofs.«141884_j71210557767875_2_alg».proof.Proof.Gen.Pre_finite_inputs
import proofs.«141884_j71210557767875_2_alg».proof.Proof.RefRun
import proofs.«141884_j71210557767875_2_alg».proof.Proof.RefRead
import proofs.«141884_j71210557767875_2_alg».proof.Proof.KernelValue
import proofs.«141884_j71210557767875_2_alg».proof.Proof.GcnBridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The plain program has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation of the kernel program: there is nothing to restate. -/
theorem preserves : Cert.preserves_Kernel_KernelIdeal := trivial

/-- From memories that agree on the arguments both programs run, and end with equal result arrays: the kernel
    program's at `kernelOut` of the arguments, the plain program's at the last of its staged operations, which is the
    same function index by index (`kernelOut_eq`). -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v51_eq, (hagree c).1, (hagree c).2.1, (hagree c).2.2.1, (hagree c).2.2.2.1,
    (hagree c).2.2.2.2.1, (hagree c).2.2.2.2.2]
  exact (Cert.Gcn.Bridge.kernelOut_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
